-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S1x1 : Shape := ⟨2, ![1, 1]⟩
abbrev S4096x4 : Shape := ⟨2, ![4096, 4]⟩
abbrev S4096x2 : Shape := ⟨2, ![4096, 2]⟩
abbrev S4096x1 : Shape := ⟨2, ![4096, 1]⟩
abbrev S1 : Shape := ⟨1, ![1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S4096x4, .f32⟩
  | .local _ .vmem, ⟨1, _⟩ => ⟨S4096x4, .f32⟩
  | .local _ .vmem, ⟨2, _⟩ => ⟨S4096x4, .f32⟩
  | .local _ .vmem, ⟨3, _⟩ => ⟨S4096x4, .f32⟩
  | .local _ .vmem, ⟨4, _⟩ => ⟨S1x1, .f32⟩
  | .local _ .vmem, ⟨5, _⟩ => ⟨S1x1, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![2048], ![false]⟩

def k0_cond2 (i : grid0.Coords) : BitVec 1 :=
  let arg0 : BitVec 32 := BitVec.ofNat 32 (i 0).val
  let c2047_i32 : BitVec 32 := 2047#32
  let v35 : BitVec 1 := Scalar.cmpi .eq arg0 c2047_i32
  let v36 : BitVec 32 := Scalar.extui v35
  let c0_i32_9 : BitVec 32 := 0#32
  let v37 : BitVec 1 := Scalar.cmpi .ne v36 c0_i32_9
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x4_S4096x4_0_0 : ∀ a, (![0, 0] : Fin 2 → Nat) a + S4096x4.size a ≤ S4096x4.size a
  h_S4096x4 : 0 < S4096x4.numel
  slices_S4096x4_o0_0_S4096x2 : S4096x4.Slices ![0, 0] S4096x2
  slices_S4096x4_o0_2_S4096x2 : S4096x4.Slices ![0, 2] S4096x2
  slices_S4096x2_o0_0_S4096x1 : S4096x2.Slices ![0, 0] S4096x1
  slices_S4096x2_o0_1_S4096x1 : S4096x2.Slices ![0, 1] S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S8388608x4.size a
  hwx0_0 : ∀ i : grid0.Coords, EltTy.bits .f32 = 32 ∨ (Rect.block (s := S8388608x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S8388608x4.size a
  hwx0_1 : ∀ i : grid0.Coords, EltTy.bits .f32 = 32 ∨ (Rect.block (s := S8388608x4) S4096x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x4 : Shape := ⟨2, ![8388608, 4]⟩
abbrev S8388608x1 : Shape := ⟨2, ![8388608, 1]⟩
abbrev S8388608 : Shape := ⟨1, ![8388608]⟩
abbrev S8388608x2 : Shape := ⟨2, ![8388608, 2]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608x1, .f32⟩
  | .hbm, ⟨7, _⟩ => ⟨S8388608, .f32⟩
  | .hbm, ⟨8, _⟩ => ⟨S8388608x1, .f32⟩
  | .hbm, ⟨9, _⟩ => ⟨S8388608, .f32⟩
  | .hbm, ⟨10, _⟩ => ⟨S8388608, .f32⟩
  | .hbm, ⟨11, _⟩ => ⟨S8388608, .f32⟩
  | .hbm, ⟨12, _⟩ => ⟨S8388608x1, .f32⟩
  | .hbm, ⟨13, _⟩ => ⟨S8388608x1, .f32⟩
  | .hbm, ⟨14, _⟩ => ⟨S8388608x1, .f32⟩
  | .hbm, ⟨15, _⟩ => ⟨S8388608x1, .f32⟩
  | .hbm, ⟨16, _⟩ => ⟨S8388608x4, .f32⟩
  | .hbm, ⟨17, _⟩ => ⟨S8388608x1, .f32⟩
  | .hbm, ⟨18, _⟩ => ⟨S8388608, .f32⟩
  | .hbm, ⟨19, _⟩ => ⟨S8388608x1, .f32⟩
  | .hbm, ⟨20, _⟩ => ⟨S8388608, .f32⟩
  | .hbm, ⟨21, _⟩ => ⟨S8388608x1, .f32⟩
  | .hbm, ⟨22, _⟩ => ⟨S8388608, .f32⟩
  | .hbm, ⟨23, _⟩ => ⟨S8388608x1, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S8388608x1, .f32⟩
  | .hbm, ⟨28, _⟩ => ⟨S8388608x1, .f32⟩
  | .hbm, ⟨29, _⟩ => ⟨S8388608x1, .f32⟩
  | .hbm, ⟨30, _⟩ => ⟨S8388608x1, .f32⟩
  | .hbm, ⟨31, _⟩ => ⟨S8388608x4, .f32⟩
  | .hbm, ⟨32, _⟩ => ⟨S8388608x2, .f32⟩
  | .hbm, ⟨33, _⟩ => ⟨S8388608x2, .f32⟩
  | .hbm, ⟨34, _⟩ => ⟨S8388608x2, .f32⟩
  | .hbm, ⟨35, _⟩ => ⟨S8388608x2, .f32⟩
  | .hbm, ⟨36, _⟩ => ⟨S8388608x2, .f32⟩
  | .hbm, ⟨37, _⟩ => ⟨S8388608x2, .f32⟩
  | .hbm, ⟨38, _⟩ => ⟨S8388608x2, .f32⟩
  | .hbm, ⟨39, _⟩ => ⟨S_, .f32⟩
  | .hbm, ⟨40, _⟩ => ⟨S_, .f32⟩
  | .hbm, ⟨41, _⟩ => ⟨S8388608x2, .f32⟩
  | .hbm, ⟨42, _⟩ => ⟨S8388608x2, .f32⟩
  | .hbm, ⟨43, _⟩ => ⟨S8388608x1, .f32⟩
  | .hbm, ⟨44, _⟩ => ⟨S8388608, .f32⟩
  | .hbm, ⟨45, _⟩ => ⟨S8388608x1, .f32⟩
  | .hbm, ⟨46, _⟩ => ⟨S8388608, .f32⟩
  | .hbm, ⟨47, _⟩ => ⟨S8388608, .f32⟩
  | .hbm, ⟨48, _⟩ => ⟨S8388608x1, .f32⟩
  | .hbm, ⟨49, _⟩ => ⟨S8388608, .f32⟩
  | .hbm, ⟨50, _⟩ => ⟨S8388608x1, .f32⟩
  | .hbm, ⟨51, _⟩ => ⟨S8388608, .f32⟩
  | .hbm, ⟨52, _⟩ => ⟨S8388608, .f32⟩
  | .hbm, ⟨53, _⟩ => ⟨S8388608x1, .f32⟩
  | .hbm, ⟨54, _⟩ => ⟨S8388608, .f32⟩
  | .hbm, ⟨55, _⟩ => ⟨S8388608x1, .f32⟩
  | .hbm, ⟨56, _⟩ => ⟨S8388608, .f32⟩
  | .hbm, ⟨57, _⟩ => ⟨S8388608, .f32⟩
  | .hbm, ⟨58, _⟩ => ⟨S8388608, .f32⟩
  | .hbm, ⟨59, _⟩ => ⟨S8388608x1, .f32⟩
  | .hbm, ⟨60, _⟩ => ⟨S8388608, .f32⟩
  | .hbm, ⟨61, _⟩ => ⟨S8388608x1, .f32⟩
  | .hbm, ⟨62, _⟩ => ⟨S8388608, .f32⟩
  | .hbm, ⟨63, _⟩ => ⟨S8388608, .f32⟩
  | .hbm, ⟨64, _⟩ => ⟨S8388608x1, .f32⟩
  | .hbm, ⟨65, _⟩ => ⟨S8388608, .f32⟩
  | .hbm, ⟨66, _⟩ => ⟨S8388608x1, .f32⟩
  | .hbm, ⟨67, _⟩ => ⟨S8388608, .f32⟩
  | .hbm, ⟨68, _⟩ => ⟨S8388608, .f32⟩
  | .hbm, ⟨69, _⟩ => ⟨S8388608, .f32⟩
  | .hbm, ⟨70, _⟩ => ⟨S8388608, .f32⟩
  | .hbm, ⟨71, _⟩ => ⟨S8388608, .f32⟩
  | .hbm, ⟨72, _⟩ => ⟨S8388608, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_cst_0 : Ref sig .tc := ⟨.hbm, 73, rfl⟩
abbrev main_v68 : Ref sig .tc := ⟨.hbm, 74, rfl⟩
abbrev main_cst_1 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩

abbrev nD : Nat := 1
abbrev τ : Topo := Topo.v7x

variable {F : FTy → Type} [FloatOps F]

class Facts₀ : Prop where
  slices_S8388608x4_S8388608x1_0_0 : S8388608x4.Slices ![0, 0] S8388608x1
  shapeCasts_S8388608x1_S8388608 : S8388608x1.ShapeCasts S8388608
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  bcast_S8388608_S8388608x1_0 : S8388608.BroadcastsInDim S8388608x1 (![0] : Fin 1 → Fin S8388608x1.rank)
  concatenates_S8388608x1_S8388608x1_S8388608x1_S8388608x1_S8388608x4_d1 : Shape.Concatenates [S8388608x1, S8388608x1, S8388608x1, S8388608x1] S8388608x4 1
  slices_S8388608x4_S8388608x2_0_0 : S8388608x4.Slices ![0, 0] S8388608x2
  slices_S8388608x4_S8388608x2_0_2 : S8388608x4.Slices ![0, 2] S8388608x2
  bcast_S_S8388608x2 : S_.BroadcastsInDim S8388608x2 (![] : Fin 0 → Fin S8388608x2.rank)
  slices_S8388608x2_S8388608x1_0_0 : S8388608x2.Slices ![0, 0] S8388608x1
  slices_S8388608x2_S8388608x1_0_1 : S8388608x2.Slices ![0, 1] S8388608x1
  reducesTo_S8388608_S_d0 : S8388608.ReducesTo [0] S_
  h_S_ : 0 < S_.numel

variable [Facts₀]

class Facts : Prop extends Facts₀ where

variable [Facts]
-- ==== Proof.Spec.lean ====
/-
  The mathematics both programs compute, stated once over the extended reals and over no program.

  A box is (x, y, w, h): a corner and two side lengths. For a predicted box a and a target box b the
  intersection's sides are  max(min(x_a + w_a, x_b + w_b) − max(x_a, x_b), 0)  and the same in y; the
  intersection-over-union is  inter / (w_a·h_a + w_b·h_b − inter).  The loss is  −log(mean of the IoU over
  all 2^23 rows).

  The reference first converts each box to its two corners (x, y, x + w, y + h) and computes an area as
  ((x + w) − x)·((y + h) − y). Over the reals that is w·h; over the extended reals the cancellation
  (x + w) − x = w needs x to be a real number ((⊤ + w) − ⊤ is ⊥, not w) — the one place where the inputs'
  finiteness is used. The reference also clips with max(0, ·) where the kernel writes max(·, 0): max commutes.
-/
import Idealize.ShloMosaic.PureOps.Ideal
import Idealize.ShloMosaic.Lib.ValueIdx

noncomputable section

namespace Cert.IouSpec

open Idealize.ShloMosaic Idealize.ShloMosaic.ValueIdx

/-- An array of `n` boxes, one row (x, y, w, h) per box, over the extended reals. -/
abbrev Boxes (n : Nat) : Type := (⟨2, ![n, 4]⟩ : Shape).Idx → EReal

/-- Intersection over union of two boxes given by corner and side lengths: the kernel's arrangement. -/
def iou (ax ay aw ah bx bY bw bh : EReal) : EReal :=
  Ideal.div
    (max (min (ax + aw) (bx + bw) - max ax bx) 0 * max (min (ay + ah) (bY + bh) - max ay bY) 0)
    (aw * ah + bw * bh
      - max (min (ax + aw) (bx + bw) - max ax bx) 0 * max (min (ay + ah) (bY + bh) - max ay bY) 0)

/-- The same from the two-corner form (x, y, x + w, y + h): the reference's arrangement. -/
def iouCorners (ax ay aw ah bx bY bw bh : EReal) : EReal :=
  Ideal.div
    (max 0 (min (ax + aw) (bx + bw) - max ax bx) * max 0 (min (ay + ah) (bY + bh) - max ay bY))
    (((ax + aw) - ax) * ((ay + ah) - ay) + ((bx + bw) - bx) * ((bY + bh) - bY)
      - max 0 (min (ax + aw) (bx + bw) - max ax bx) * max 0 (min (ay + ah) (bY + bh) - max ay bY))

/-- Adding a real number and taking it away again changes nothing, whatever the other term is. -/
theorem add_sub_real (x : ℝ) (w : EReal) : ((x : EReal) + w) - (x : EReal) = w := by
  induction w using EReal.rec with
  | bot => simp
  | top => simp
  | coe w => norm_cast; ring

/-- With real corners the two arrangements are one number. -/
theorem iouCorners_eq (ax ay bx bY : ℝ) (aw ah bw bh : EReal) :
    iouCorners ax ay aw ah bx bY bw bh = iou ax ay aw ah bx bY bw bh := by
  unfold iouCorners iou
  rw [add_sub_real, add_sub_real, add_sub_real, add_sub_real,
    max_comm 0 (min ((ax : EReal) + aw) (bx + bw) - max (ax : EReal) bx),
    max_comm 0 (min ((ay : EReal) + ah) (bY + bh) - max (ay : EReal) bY)]

/-- Row `r`'s intersection over union of two box arrays. -/
def rowIou {n : Nat} (A B : Boxes n) (r : Fin n) : EReal :=
  iou (A (ix2 r 0)) (A (ix2 r 1)) (A (ix2 r 2)) (A (ix2 r 3)) (B (ix2 r 0)) (B (ix2 r 1)) (B (ix2 r 2)) (B (ix2 r 3))

/-- The same through the corner form. -/
def rowIouCorners {n : Nat} (A B : Boxes n) (r : Fin n) : EReal :=
  iouCorners (A (ix2 r 0)) (A (ix2 r 1)) (A (ix2 r 2)) (A (ix2 r 3)) (B (ix2 r 0)) (B (ix2 r 1)) (B (ix2 r 2)) (B (ix2 r 3))

/-- On arrays of real numbers the two agree row by row. -/
theorem rowIouCorners_eq {n : Nat} (A B : Boxes n) (hA : ∀ i, ∃ x : ℝ, A i = x) (hB : ∀ i, ∃ x : ℝ, B i = x)
    (r : Fin n) : rowIouCorners A B r = rowIou A B r := by
  unfold rowIouCorners rowIou
  obtain ⟨a0, e0⟩ := hA (ix2 r 0)
  obtain ⟨a1, e1⟩ := hA (ix2 r 1)
  obtain ⟨b0, f0⟩ := hB (ix2 r 0)
  obtain ⟨b1, f1⟩ := hB (ix2 r 1)
  rw [e0, e1, f0, f1]
  exact iouCorners_eq a0 a1 b0 b1 _ _ _ _

/-- The sum of the intersection over union over all rows. -/
def total (A B : Boxes 8388608) : EReal := ∑ r : Fin 8388608, rowIou A B r

/-- The loss: minus the logarithm of the mean, the divisor the float 2^23 both programs print. -/
def loss (A B : Boxes 8388608) : EReal :=
  -(Ideal.log (Ideal.div (total A B) (Ideal.ofBits .f32 0x4B000000#32)))

end Cert.IouSpec

end
-- ==== Proof.KCases.lean ====
/-
  What the body leaves behind in each of its three cases, as values.

  The accumulator is a one-element buffer the kernel keeps between grid points. At the first point the body
  stores the zero word into it, reads it back and stores "what it read + this block's sum"; at every later
  point it stores "what the point before left + this block's sum"; at the last point it also copies the
  accumulator into the output's one-element block. Each store covers the whole buffer, so what a buffer holds
  afterwards is the last store's value, and each load reads the whole of a buffer, so the value is the
  accumulating store's function `k0_pay2` of the two input blocks and the accumulator's previous contents.
-/
import proofs.«137638_j41231686041778_1_alg».proof.Proof.Gen.KernelIdeal.Frame
import Idealize.ShloMosaic.Lib.Pipeline.Value
import Idealize.ShloMosaic.Lib.Tactic

noncomputable section

namespace Cert.IouKernel

open Idealize.ShloMosaic Idealize.ShloMosaic.TcCoe Idealize.SL.Sem
open Cert.KernelIdeal Cert.KernelIdeal.Gen

variable {F : FTy → Type} [FloatOps F]

/-- Every rectangle the body loads or stores through starts at the origin. -/
theorem origin : (![0, 0] : Fin 2 → Nat) = fun _ => 0 := funext fun a => by fin_cases a <;> rfl

/-- A middle point (neither first nor last) leaves in the accumulator what it held plus the block's sum. -/
theorem acc_middle (c : Dev nD) (i : grid0.Coords) (a1 : Memref sig .tc .vmem S4096x4 .f32) (h1 : a1.IsWhole) (a2 : Memref sig .tc .vmem S4096x4 .f32) (h2 : a2.IsWhole)
    (a3 : Memref sig .tc .vmem S1x1 .f32) (h3 : a3.IsWhole) (a4 : Memref sig .tc .vmem S1x1 .f32) (h4 : a4.IsWhole) (hc0 : ¬cond0_0 i) (hc1 : ¬cond0_1 i)
    (x0 x1 : Vec F S4096x4 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero origin]
  simp only [View.readAt_eq_ld, h1.read_unread, h2.read_unread, h4.read_unread, View.ld_unit_zero (S := S4096x4) origin,
    View.ld_unit_zero (S := S1x1) origin]

/-- The last point leaves the same in the accumulator, -/
theorem acc_last (c : Dev nD) (i : grid0.Coords) (a1 : Memref sig .tc .vmem S4096x4 .f32) (h1 : a1.IsWhole) (a2 : Memref sig .tc .vmem S4096x4 .f32) (h2 : a2.IsWhole)
    (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S4096x4 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero origin]
  simp only [View.readAt_eq_ld, h1.read_unread, h2.read_unread, h4.read_unread, View.ld_unit_zero (S := S4096x4) origin,
    View.ld_unit_zero (S := S1x1) origin]

/-- and copies it into the output's block: the copy reads the accumulator after the accumulating store. -/
theorem out_last (c : Dev nD) (i : grid0.Coords) (a1 : Memref sig .tc .vmem S4096x4 .f32) (h1 : a1.IsWhole) (a2 : Memref sig .tc .vmem S4096x4 .f32) (h2 : a2.IsWhole)
    (a3 : Memref sig .tc .vmem S1x1 .f32) (h3 : a3.IsWhole) (a4 : Memref sig .tc .vmem S1x1 .f32) (h4 : a4.IsWhole) (hc0 : ¬cond0_0 i) (hc1 : cond0_1 i)
    (x0 x1 : Vec F S4096x4 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero origin, View.readCov_unit_zero (S := S1x1) _ origin]
  simp only [View.readAt_eq_ld, h1.read_unread, h2.read_unread, h4.read_unread, View.ld_unit_zero (S := S4096x4) origin,
    View.ld_unit_zero (S := S1x1) origin]

/-- The first point resets the accumulator to the zero word first, so it leaves the zero word plus the block's sum. -/
theorem acc_first (c : Dev nD) (i : grid0.Coords) (a1 : Memref sig .tc .vmem S4096x4 .f32) (h1 : a1.IsWhole) (a2 : Memref sig .tc .vmem S4096x4 .f32) (h2 : a2.IsWhole)
    (a3 : Memref sig .tc .vmem S1x1 .f32) (h3 : a3.IsWhole) (a4 : Memref sig .tc .vmem S1x1 .f32) (h4 : a4.IsWhole) (hc0 : cond0_0 i) (hc1 : ¬cond0_1 i)
    (x0 x1 : Vec F S4096x4 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S4096x4) origin]

end Cert.IouKernel

end
-- ==== Proof.LibColumnSum.lean ====
/-
  The second half of a sum that keeps its axes: a column [a, 1] summed along its rows into a one-element
  array. At exact arithmetic the float sum into an array whose every axis has extent one is the sum over
  every entry of the operand; for a column that is the sum over its row coordinate. And the one-element
  array cast to 1×1 moves no value (the cast of a vector to a column, at a = 1).
-/
import Idealize.ShloMosaic.Lib.ValueLayout
import Idealize.ShloMosaic.PureOps.Ideal.Laws

namespace Cert.Lib.ColumnSum

open Idealize.ShloMosaic Idealize.ShloMosaic.ValueIdx

/-- A float sum of a column [a, 1] over its rows from the zero word, at exact arithmetic, is at its one index
    the sum of the column's entries. -/
theorem colSum_apply {a : ℕ} (src : FVec Ideal ⟨2, ![a, 1]⟩ .f32)
    (h : (⟨2, ![a, 1]⟩ : Shape).Reduces [0] (⟨1, ![1]⟩ : Shape)) (hφ : FKind.Formats .f32)
    (hacc : (0x00000000#32 : BitVec 32) = 0x00000000#32) (u : Fin 1) :
    multiReduction .add [0] ⟨1, ![1]⟩ src 0x00000000#32 h hφ hacc (ix1 u) = ∑ p : Fin a, src (ix2 p (0 : Fin 1)) := by
  refine (Ideal.multiReduction_add_total src 0x00000000#32 h (fun b => by fin_cases b; rfl) hφ hacc (ix1 u)).trans ?_
  rw [sum_idx2]
  exact Finset.sum_congr rfl fun p _ => Fin.sum_univ_one _

end Cert.Lib.ColumnSum
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.KBlock.lean ====
/-
  What one grid point adds to the running sum.

  The body reads a block of 4096 predicted boxes and the matching block of 4096 target boxes, computes row by
  row the intersection over union (columns 0–1 are the corner, columns 2–3 the side lengths; every step is a
  pointwise operation on column slices), sums the 4096 quotients into one number, and adds that number to
  what the accumulator holds. Read at the accumulator's one index this is

      acc + Σ_{p < 4096} iou(row p of the predicted block, row p of the target block).

  The zero the body clips against is the float word 0, which is the number 0.
-/
import proofs.«137638_j41231686041778_1_alg».proof.Proof.Gen.KernelIdeal.Skeleton
import proofs.«137638_j41231686041778_1_alg».proof.Proof.Spec
import proofs.«137638_j41231686041778_1_alg».proof.Proof.LibColumnSum
import proofs.«137638_j41231686041778_1_alg».proof.Proof.LibKeepdims
import Idealize.ShloMosaic.Lib.Pipeline.Value
import Idealize.ShloMosaic.Lib.ValueIdx

noncomputable section

namespace Cert.IouKernel

open Idealize.ShloMosaic Idealize.ShloMosaic.ValueIdx
open Cert.KernelIdeal Cert.KernelIdeal.Gen

/-- Columns `o, o + 1, …` of a matrix, cut out: column `q` of the slice is column `o + q`, the row unchanged. -/
theorem slice_cols {α : Type} {a b b' : ℕ} (o : ℕ) (x : (⟨2, ![a, b]⟩ : Shape).Idx → α)
    (h : (⟨2, ![a, b]⟩ : Shape).Slices ![0, o] ⟨2, ![a, b']⟩) (p : Fin a) (q : Fin b') (hK : o + q.val < b) :
    extractStridedSlice ⟨2, ![a, b']⟩ ![0, o] x h (ix2 p q) = x (ix2 p (⟨o + q.val, hK⟩ : Fin b)) :=
  extractStridedSlice_apply ![0, o] x h (ix2 p q) (ix2 p (⟨o + q.val, hK⟩ : Fin b)) fun ax =>
    match ax with
    | ⟨0, _⟩ => by show p.val = 0 + p.val; omega
    | ⟨1, _⟩ => rfl

/-- The sum of the intersection over union over the 4096 rows of a pair of blocks. -/
def blockSum (x0 x1 : FVec Ideal S4096x4 .f32) : EReal := ∑ p : Fin 4096, IouSpec.rowIou x0 x1 p

/-- The accumulating store's value at its one index: what the accumulator held plus the block's sum. -/
theorem pay2_apply (x0 x1 : FVec Ideal S4096x4 .f32) (acc : FVec Ideal S1x1 .f32) (u v : Fin 1) :
    k0_pay2 (F := Ideal) x0 x1 acc (ix2 u v) = acc (ix2 u v) + blockSum x0 x1 := by
  unfold k0_pay2 blockSum
  refine (congrFun (shapeCast_self _ _) (ix2 u v)).trans ?_
  refine congrArg (acc (ix2 u v) + ·) ?_
  refine (Cert.Lib.Keepdims.shapeCast_a_a1_apply _ _ u v).trans ?_
  refine (Cert.Lib.ColumnSum.colSum_apply _ _ _ _ u).trans ?_
  refine Finset.sum_congr rfl fun p _ => ?_
  simp (disch := decide) only [divf_apply, mulf_apply, subf_apply, addf_apply, maximumf_apply, minimumf_apply,
    broadcast_apply, slice_cols]
  simp only [IouSpec.rowIou, IouSpec.iou, Ideal.ofBits_def, Ideal.ofBits_zero_f32]
  rfl

/-- The first point's reset stores the zero word: the number 0. -/
theorem pay1_apply (u v : Fin 1) : k0_pay1 (F := Ideal) (ix2 u v) = 0 := by
  unfold k0_pay1
  refine (congrFun (shapeCast_self _ _) (ix2 u v)).trans ?_
  exact Ideal.ofBits_zero_f32

end Cert.IouKernel

end
-- ==== Proof.KChain.lean ====
/-
  The accumulator, point by point.

  Point `t` of the grid reads rows 4096·t … 4096·t + 4095 of the two box arrays. Write s(t) for the sum of the
  intersection over union over those 4096 rows. The first point leaves 0 + s(0) in the accumulator, every later
  point what the point before left plus s(t); so after point `n` the accumulator holds s(0) + … + s(n) — by
  induction on the point, never by listing the 2048 points. The last point copies that number to the output.
-/
import proofs.«137638_j41231686041778_1_alg».proof.Proof.Gen.KernelIdeal.Frame
import proofs.«137638_j41231686041778_1_alg».proof.Proof.KCases
import proofs.«137638_j41231686041778_1_alg».proof.Proof.KBlock

noncomputable section

namespace Cert.IouKernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- On an accumulator holding the number `a` the accumulating store writes `a` plus the block's sum. -/
theorem pay2_const (x0 x1 : FVec Ideal S4096x4 .f32) (a : EReal) :
    k0_pay2 (F := Ideal) x0 x1 (fun _ => a) = fun _ => a + blockSum x0 x1 := by
  funext j
  obtain ⟨u, v, rfl⟩ : ∃ (u v : Fin 1), j = ix2 u v := ⟨j 0, j 1, eq_ix2 j⟩
  exact pay2_apply x0 x1 (fun _ => a) u v

/-- The reset writes the number 0. -/
theorem pay1_const : k0_pay1 (F := Ideal) = fun _ => (0 : EReal) := by
  funext j
  obtain ⟨u, v, rfl⟩ : ∃ (u v : Fin 1), j = ix2 u v := ⟨j 0, j 1, eq_ix2 j⟩
  exact pay1_apply u v

/-- s(t): the sum of the intersection over union over the rows of the two blocks point `t` reads. -/
def pointSum (c : Dev nD) (t : Fin cfg0.N) : EReal := blockSum (iblk m c 0 t) (iblk m c 1 t)

/-- The same for a bare number, 0 past the grid's end. -/
def pointSumN (c : Dev nD) (s : ℕ) : EReal := if h : s < cfg0.N then pointSum m c ⟨s, h⟩ else 0

/-- s(0) + … + s(n). -/
def running (c : Dev nD) (n : ℕ) : EReal := ∑ s ∈ Finset.range (n + 1), pointSumN m c s

theorem running_zero (c : Dev nD) (h : 0 < cfg0.N) : running m c 0 = pointSum m c ⟨0, h⟩ := by
  unfold running pointSumN
  rw [Finset.sum_range_one, dif_pos h]

theorem running_succ (c : Dev nD) (n : ℕ) (h : n + 1 < cfg0.N) :
    running m c (n + 1) = running m c n + pointSum m c ⟨n + 1, h⟩ := by
  unfold running
  rw [Finset.sum_range_succ]
  refine congrArg (_ + ·) ?_
  unfold pointSumN
  rw [dif_pos h]

/-- What the first point leaves in the accumulator, as the accumulating store's value. -/
theorem first_point (c : Dev nD) (t : Fin cfg0.N) (h0 : t.val % 2048 = 0) (h1 : ¬t.val % 2048 = 2047) :
    (outsAt0 m c t.val t.isLt).2 = k0_pay2 (F := Ideal) (iblk m c 0 t) (iblk m c 1 t) (k0_pay1 (F := Ideal)) :=
  (congrArg Prod.snd (outsAt0_A m c t h0 h1)).trans
    (acc_first (F := Ideal) c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t))

/-- What a middle point leaves there, over what the point before left. -/
theorem middle_point (c : Dev nD) (t : Fin cfg0.N) (h0 : ¬t.val % 2048 = 0) (h1 : ¬t.val % 2048 = 2047) :
    (outsAt0 m c t.val t.isLt).2 = k0_pay2 (F := Ideal) (iblk m c 0 t) (iblk m c 1 t)
      (outsAt0 m c (t.val - 1) (Nat.lt_of_le_of_lt (Nat.sub_le _ _) t.isLt)).2 :=
  (congrArg Prod.snd (outsAt0_B m c t h0 h1)).trans
    (acc_middle (F := Ideal) c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2)

/-- What the last point leaves there, -/
theorem last_point (c : Dev nD) (t : Fin cfg0.N) (h0 : ¬t.val % 2048 = 0) (h1 : t.val % 2048 = 2047) :
    (outsAt0 m c t.val t.isLt).2 = k0_pay2 (F := Ideal) (iblk m c 0 t) (iblk m c 1 t)
      (outsAt0 m c (t.val - 1) (Nat.lt_of_le_of_lt (Nat.sub_le _ _) t.isLt)).2 :=
  (congrArg Prod.snd (outsAt0_C m c t h0 h1)).trans
    (acc_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)

/-- and in the output's block: the same value. -/
theorem last_point_out (c : Dev nD) (t : Fin cfg0.N) (h0 : ¬t.val % 2048 = 0) (h1 : t.val % 2048 = 2047) :
    (outsAt0 m c t.val t.isLt).1 = k0_pay2 (F := Ideal) (iblk m c 0 t) (iblk m c 1 t)
      (outsAt0 m c (t.val - 1) (Nat.lt_of_le_of_lt (Nat.sub_le _ _) t.isLt)).2 :=
  (congrArg Prod.fst (outsAt0_C m c t h0 h1)).trans
    (out_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)

/-- After point `n` the accumulator holds s(0) + … + s(n). -/
theorem acc_eq (c : Dev nD) : ∀ (n : ℕ) (h : n < cfg0.N), (outsAt0 m c n h).2 = fun _ => running m c n
  | 0, h => by
    refine (first_point m c ⟨0, h⟩ (Nat.zero_mod _) (by show ¬(0 % 2048 = 2047); decide)).trans ?_
    rw [pay1_const, pay2_const, running_zero m c h, zero_add]
    rfl
  | n + 1, h => by
    have hN : cfg0.N = 2048 := N_0
    have h0 : ¬(⟨n + 1, h⟩ : Fin cfg0.N).val % 2048 = 0 := by dsimp only; omega
    have ih := acc_eq c n (Nat.lt_of_succ_lt h)
    by_cases h1 : (⟨n + 1, h⟩ : Fin cfg0.N).val % 2048 = 2047
    · refine (last_point m c ⟨n + 1, h⟩ h0 h1).trans ?_
      show k0_pay2 (F := Ideal) _ _ (outsAt0 m c n _).2 = _
      rw [ih, pay2_const, running_succ m c n h]
      rfl
    · refine (middle_point m c ⟨n + 1, h⟩ h0 h1).trans ?_
      show k0_pay2 (F := Ideal) _ _ (outsAt0 m c n _).2 = _
      rw [ih, pay2_const, running_succ m c n h]
      rfl

/-- The last point's number. -/
abbrev lastN : ℕ := 2047

theorem lastN_lt : lastN < cfg0.N := by rw [show cfg0.N = 2048 from N_0]; decide

/-- The last point, as a point of the grid. -/
abbrev tLast : Fin cfg0.N := ⟨lastN, lastN_lt⟩

/-- After the last point the output's block holds s(0) + … + s(2047). -/
theorem out_eq (c : Dev nD) : (outsAt0 m c tLast.val tLast.isLt).1 = fun _ => running m c lastN := by
  have ih := acc_eq m c 2046 (by rw [show cfg0.N = 2048 from N_0]; decide)
  refine (last_point_out m c tLast (by decide) (by decide)).trans ?_
  show k0_pay2 (F := Ideal) _ _ (outsAt0 m c 2046 _).2 = _
  rw [ih, pay2_const, show lastN = 2046 + 1 from rfl, running_succ m c 2046 lastN_lt]
  rfl

end Cert.IouKernel

end
-- ==== Proof.LibBlockSum.lean ====
/-
  Regrouping a long sum into consecutive blocks.

  A sum of `B * n` terms `f 0, f 1, …` can be taken block by block: first the `B` terms of block `0`, then the `B`
  terms of block `1`, and so on, block `s` holding the terms `f (B * s + k)` for `k < B`. Only associativity and
  commutativity of the addition are used, so the statements hold in any commutative additive monoid — in particular
  on the extended reals, where no finiteness is needed.
-/
import Idealize.ShloMosaic.Lib.ValueIdx

namespace BlockSum

open Finset

variable {β : Type*} [AddCommMonoid β]

/-- The first `n` blocks of `B` consecutive terms, summed block by block, are the first `B * n` terms. -/
theorem sum_range_blocks (f : ℕ → β) (B : ℕ) :
    ∀ n : ℕ, ∑ s ∈ range n, ∑ k ∈ range B, f (B * s + k) = ∑ K ∈ range (B * n), f K
  | 0 => by rw [Nat.mul_zero, sum_range_zero, sum_range_zero]
  | n + 1 => by
    rw [sum_range_succ, sum_range_blocks f B n, Nat.mul_succ, sum_range_add]

/-- The same with the position inside a block and the position in the whole sum running over `Fin` types: `n`
    blocks of `B` terms make up a sum of `N = B * n` terms. -/
theorem sum_fin_blocks (f : ℕ → β) (B n N : ℕ) (h : N = B * n) :
    ∑ s ∈ range n, ∑ k : Fin B, f (B * s + k.val) = ∑ K : Fin N, f K.val := by
  subst h
  rw [Fin.sum_univ_eq_sum_range (fun K => f K) (B * n), ← sum_range_blocks f B n]
  exact sum_congr rfl fun s _ => Fin.sum_univ_eq_sum_range (fun k => f (B * s + k)) B

end BlockSum
-- ==== Proof.KRows.lean ====
/-
  From blocks to the whole arrays.

  Row `k` of the block point `t` reads is row 4096·t + k of the array (the block index of an input window at
  point `t` is (t, 0): decided once over the grid). So s(t), the sum over the block's rows, is the sum of the
  row-wise intersection over union over rows 4096·t … 4096·t + 4095 of the two arrays, and the 2048 block
  sums taken one after the other are the one sum over all 8388608 rows: addition of extended reals is
  associative and commutative, so the grouping into blocks does not matter (no finiteness is needed here).
-/
import proofs.«137638_j41231686041778_1_alg».proof.Proof.Gen.KernelIdeal.Frame
import proofs.«137638_j41231686041778_1_alg».proof.Proof.KChain
import proofs.«137638_j41231686041778_1_alg».proof.Proof.LibBlockSum

noncomputable section

namespace Cert.IouKernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The two input windows' block at point `t` is block (t, 0) of its array. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (k, j) of the predicted boxes' block at point `t` is entry (4096·t + k, j) of the array. -/
theorem iblk0_apply (c : Dev nD) (t : Fin cfg0.N) (k : Fin 4096) (j : Fin 4) (K : Fin 8388608)
    (hK : K.val = 4096 * t.val + k.val) :
    iblk m c 0 t (ix2 k j) = m ((c : Thread nD τ).loc main_arg0) (ix2 K j) := by
  unfold iblk
  rw [View.read_apply]
  show V m c main_arg0 (((cfg0.win 0).blk t).view.emb (ix2 k j)) = m ((c : Thread nD τ).loc main_arg0) (ix2 K j)
  rw [V_main_arg0]
  refine congrArg _ ?_
  funext a
  apply Fin.ext
  match a with
  | ⟨0, _⟩ =>
    show win0_0.index t 0 * 4096 + 1 * k.val = K.val
    rw [(index0 t).1, hK]; omega
  | ⟨1, _⟩ =>
    show win0_0.index t 1 * 4 + 1 * j.val = j.val
    rw [(index0 t).2]; omega

/-- The same for the target boxes. -/
theorem iblk1_apply (c : Dev nD) (t : Fin cfg0.N) (k : Fin 4096) (j : Fin 4) (K : Fin 8388608)
    (hK : K.val = 4096 * t.val + k.val) :
    iblk m c 1 t (ix2 k j) = m ((c : Thread nD τ).loc main_arg1) (ix2 K j) := by
  unfold iblk
  rw [View.read_apply]
  show V m c main_arg1 (((cfg0.win 1).blk t).view.emb (ix2 k j)) = m ((c : Thread nD τ).loc main_arg1) (ix2 K j)
  rw [V_main_arg1]
  refine congrArg _ ?_
  funext a
  apply Fin.ext
  match a with
  | ⟨0, _⟩ =>
    show win0_1.index t 0 * 4096 + 1 * k.val = K.val
    rw [(index1 t).1, hK]; omega
  | ⟨1, _⟩ =>
    show win0_1.index t 1 * 4 + 1 * j.val = j.val
    rw [(index1 t).2]; omega

/-- Row `k` of the pair of blocks at point `t` has the intersection over union of row 4096·t + k of the arrays. -/
theorem rowIou_block (c : Dev nD) (t : Fin cfg0.N) (k : Fin 4096) (K : Fin 8388608) (hK : K.val = 4096 * t.val + k.val) :
    IouSpec.rowIou (iblk m c 0 t) (iblk m c 1 t) k
      = IouSpec.rowIou (m ((c : Thread nD τ).loc main_arg0)) (m ((c : Thread nD τ).loc main_arg1)) K := by
  unfold IouSpec.rowIou
  rw [iblk0_apply m c t k 0 K hK, iblk0_apply m c t k 1 K hK, iblk0_apply m c t k 2 K hK, iblk0_apply m c t k 3 K hK,
    iblk1_apply m c t k 0 K hK, iblk1_apply m c t k 1 K hK, iblk1_apply m c t k 2 K hK, iblk1_apply m c t k 3 K hK]

/-- A row's intersection over union by the row's number, 0 past the arrays' end. -/
def rowN (A B : IouSpec.Boxes 8388608) (K : ℕ) : EReal := if h : K < 8388608 then IouSpec.rowIou A B ⟨K, h⟩ else 0

/-- s(t) is the sum over rows 4096·t … 4096·t + 4095 of the arrays. -/
theorem pointSumN_eq (c : Dev nD) (s : ℕ) (hs : s < 2048) :
    pointSumN m c s
      = ∑ k : Fin 4096, rowN (m ((c : Thread nD τ).loc main_arg0)) (m ((c : Thread nD τ).loc main_arg1)) (4096 * s + k.val) := by
  have h : s < cfg0.N := by rw [show cfg0.N = 2048 from N_0]; exact hs
  unfold pointSumN
  rw [dif_pos h]
  unfold pointSum blockSum
  refine Finset.sum_congr rfl fun k _ => ?_
  have hk : 4096 * s + k.val < 8388608 := by have := k.isLt; omega
  unfold rowN
  rw [dif_pos hk]
  exact rowIou_block m c ⟨s, h⟩ k ⟨4096 * s + k.val, hk⟩ rfl

/-- After the last point the running sum is the sum over all rows. -/
theorem running_last (c : Dev nD) :
    running m c lastN = IouSpec.total (m ((c : Thread nD τ).loc main_arg0)) (m ((c : Thread nD τ).loc main_arg1)) := by
  unfold running IouSpec.total
  show ∑ s ∈ Finset.range 2048, pointSumN m c s = _
  rw [Finset.sum_congr rfl (fun s hs => pointSumN_eq m c s (Finset.mem_range.mp hs)),
    BlockSum.sum_fin_blocks (rowN (m ((c : Thread nD τ).loc main_arg0)) (m ((c : Thread nD τ).loc main_arg1))) 4096 2048 8388608 (by norm_num)]
  refine Finset.sum_congr rfl fun K _ => ?_
  unfold rowN
  rw [dif_pos K.isLt]

end Cert.IouKernel

end
-- ==== Proof.KFinal.lean ====
/-
  The kernel's result.

  The output array has one element and one block, written back once, after the last point; what is written is the
  accumulator's final contents, the sum s(0) + … + s(2047), which is the sum of the intersection over union over
  all rows. The host lines after the call reshape that one element to a scalar, divide it by the float 2^23, take
  the logarithm and negate: the loss.
-/
import proofs.«137638_j41231686041778_1_alg».proof.Proof.Gen.KernelIdeal.Frame
import proofs.«137638_j41231686041778_1_alg».proof.Proof.KChain
import proofs.«137638_j41231686041778_1_alg».proof.Proof.KRows
import Idealize.ShloMosaic.Lib.Pipeline.Value
import Idealize.ShloMosaic.Lib.StableHlo.Run
import Idealize.ShloMosaic.Lib.Tactic

noncomputable section

namespace Cert.IouKernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The output array's contents after the run: its one element the sum of all the block sums. -/
abbrev summed (c : Dev nD) : Buf (Elt Ideal) ((c : Thread nD τ).loc main_v0) := fun _ => running m c lastN

/-- The one write-back, after the last point, writes it: the output's block is the whole one-element array. -/
theorem flushed_eq (c : Dev nD) (t : Fin cfg0.N) (hf : (cfg0.win 2).flush t = true) :
    (dats m 0 c).flushed 2 t = ((cfg0.win 2).blk t).view.read (Elt Ideal) (summed m c) := by
  have hN : cfg0.N = 2048 := N_0
  have hl : t.val = 2047 := by have := (flush0_2 t).mp hf; have := t.isLt; omega
  obtain rfl : t = tLast := Fin.ext hl
  show (cfg0.win 2).cut (grid0.coords tLast) ((dats m 0 c).after 2 tLast) = _
  rw [after0_2, out_eq]
  have hz' : (fun a => win0_2.index tLast a * main_v0.ty.shape.size a) = fun _ => 0 :=
    funext fun a => by fin_cases a <;> decide +kernel
  exact (Memref.read_access_unit_zero (Elt Ideal) main_v0 hz' (fun a => by rw [congrFun hz' a]; simp) (summed m c)).symm

/-- So the output array ends holding that sum: the last point's block covers its one index. -/
theorem final_out (c : Dev nD) : (dats m 0 c).arrAt 2 cfg0.N = summed m c :=
  (dats m 0 c).arrAt_eq_of_cover 2 (summed m c) (flushed_eq m c) fun i =>
    ⟨tLast, (flush0_2 tLast).mpr (by decide), by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The host lines after the call, applied to the output array, give the loss of the two argument arrays. -/
theorem tail_eq (c : Dev nD) :
    Pipeline.afterTail₀ cfgs (dats m) 0 (V0 m) [hostOps1] c main_v4
      = fun _ => IouSpec.loss (m ((c : Thread nD τ).loc main_arg0)) (m ((c : Thread nD τ).loc main_arg1)) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v0)
      = summed m c :=
    (Pipeline.withArrays_arr spec0 launch0.win.arr_inj c _ _ 2).trans (final_out m c)
  rw [hA]
  funext i
  unfold IouSpec.loss
  rw [← running_last m c]
  rfl

/-- The run, read: the result at the loss of the two argument arrays, the arguments unchanged. -/
theorem run : θ_run defs (onTc (τ := τ) (main (F := Ideal))) ⟨m, fun _ => 0, ρ⟩ fun r => ∀ c : Dev nD,
      r.2.mem ((c.tc : Thread nD τ).loc main_v4)
          = (fun _ => IouSpec.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (by decide)).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.IouKernel

end
-- ==== Proof.Finite.lean ====
/-
  The precondition, read: every entry of both box arrays is a real number.

  The precondition says, for each array, that every entry's absolute value is below the float word 0x7F800000,
  which is +∞, and joins the two statements by "and". An extended real x with max(x, −x) < +∞ is neither +∞ nor
  −∞: it is a real number.
-/
import proofs.«137638_j41231686041778_1_alg».proof.Pre_finite_inputs
import proofs.«137638_j41231686041778_1_alg».proof.Proof.Gen.Pre_finite_inputs
import Idealize.ShloMosaic.Lib.ReduceAll
import Idealize.ShloMosaic.Lib.ValueIdx
import Idealize.ShloMosaic.PureOps.Ideal

noncomputable section

namespace Cert.IouFinite

open Idealize.ShloMosaic Idealize.ShloMosaic.ValueIdx
open Cert.Pre_finite_inputs Cert.Pre_finite_inputs.Facts

/-- A scalar has one index. -/
instance : Subsingleton S_.Idx := ⟨fun a b => funext fun d => d.elim0⟩

/-- The float word 0x7F800000 is +∞. -/
theorem inf_word : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One entry's comparison came out true: the entry is a real number. -/
theorem real_of_cmp (x : EReal) (h : BitVec.ofBool (decide (max x (-x) < Ideal.ofBits .f32 0x7F800000#32)) = 1#1) :
    ∃ r : ℝ, x = (r : EReal) := by
  rw [inf_word] at h
  refine real_of_abs_lt_top x ?_
  by_contra hn
  rw [decide_eq_false hn] at h
  exact absurd h (by decide)

/-- Under the precondition both arrays hold real numbers only. -/
theorem real_of_pre (x0 x1 : FVec Ideal S8388608x4 .f32)
    (h : fn (F := Ideal) x0 x1 = fun _ => 1#1) :
    (∀ i, ∃ r : ℝ, x0 i = (r : EReal)) ∧ (∀ i, ∃ r : ℝ, x1 i = (r : EReal)) := by
  have e := congrFun h ix0
  dsimp only [fn] at e
  obtain ⟨e0, e1⟩ := IntOp.andi_eq_one.mp e
  exact ⟨fun i => real_of_cmp (x0 i) (Host.reduce_andi_all _ _ _ _ ix0 e0 i),
    fun i => real_of_cmp (x1 i) (Host.reduce_andi_all _ _ _ _ ix0 e1 i)⟩

end Cert.IouFinite

end
-- ==== Proof.LibConcatFour.lean ====
/-
  A concatenate of four pieces of one shape, read at an index given by coordinates: four vectors `[b]` laid end to
  end read, at `b n + q`, piece `n` at `q` (`concat4_axis0`); four matrices `[a, b]` set side by side read, at row `p`
  and column `b n + q`, piece `n` at `(p, q)` (`concat4_axis1`); and a block of 512 rows cut out of a `[1024, 512]`
  matrix reads, at row `k`, the matrix's row `o + k` (`slice_rows`).  Any element type.
-/
import Idealize.ShloMosaic.Lib.Pipeline.Value
import Idealize.ShloMosaic.Lib.ValueIdx

noncomputable section

namespace Cert.Lib.ConcatFour

open Idealize.ShloMosaic Idealize.ShloMosaic.ValueIdx

section Four
variable {α : Type}

/-- Four vectors `[b]` laid end to end: entry `b n + q` is entry `q` of piece `n`. -/
theorem concat4_axis0 {b N : Nat} (x0 x1 x2 x3 : (⟨1, ![b]⟩ : Shape).Idx → α)
    (h : Shape.Concatenates [(⟨1, ![b]⟩ : Shape), ⟨1, ![b]⟩, ⟨1, ![b]⟩, ⟨1, ![b]⟩] ⟨1, ![N]⟩ 0)
    (n : Fin 4) (q : Fin b) (K : Fin N) (hK : K.val = b * n.val + q.val) :
    concatenate ⟨1, ![N]⟩ 0 [⟨⟨1, ![b]⟩, x0⟩, ⟨⟨1, ![b]⟩, x1⟩, ⟨⟨1, ![b]⟩, x2⟩, ⟨⟨1, ![b]⟩, x3⟩] h (ix1 K)
      = (![x0, x1, x2, x3] n) (ix1 q) := by
  have hi : ∀ b' : Fin (⟨1, ![b]⟩ : Shape).rank, b'.cast (rfl : (⟨1, ![b]⟩ : Shape).rank = (⟨1, ![N]⟩ : Shape).rank) ≠ (0 : Fin 1) →
      ((ix1 q : (⟨1, ![b]⟩ : Shape).Idx) b').val = ((ix1 K : (⟨1, ![N]⟩ : Shape).Idx) (b'.cast rfl)).val :=
    fun b' hb => absurd (Fin.ext (by have hlt : b'.val < 1 := b'.isLt; show b'.val = 0; omega)) hb
  match n with
  | ⟨0, _⟩ =>
    exact concatenate_apply_piece 0 [⟨⟨1, ![b]⟩, x0⟩, ⟨⟨1, ![b]⟩, x1⟩, ⟨⟨1, ![b]⟩, x2⟩, ⟨⟨1, ![b]⟩, x3⟩] h (ix1 K) 0 (by show 0 < 4; omega) ⟨1, ![b]⟩ x0 rfl rfl 0 rfl (ix1 q) hi
      (by show 0 + q.val = K.val; rw [hK]; show 0 + q.val = b * 0 + q.val; omega)
  | ⟨1, _⟩ =>
    exact concatenate_apply_piece 0 [⟨⟨1, ![b]⟩, x0⟩, ⟨⟨1, ![b]⟩, x1⟩, ⟨⟨1, ![b]⟩, x2⟩, ⟨⟨1, ![b]⟩, x3⟩] h (ix1 K) 1 (by show 1 < 4; omega) ⟨1, ![b]⟩ x1 rfl rfl b (by show b + 0 = b; omega) (ix1 q) hi
      (by show b + q.val = K.val; rw [hK]; show b + q.val = b * 1 + q.val; omega)
  | ⟨2, _⟩ =>
    exact concatenate_apply_piece 0 [⟨⟨1, ![b]⟩, x0⟩, ⟨⟨1, ![b]⟩, x1⟩, ⟨⟨1, ![b]⟩, x2⟩, ⟨⟨1, ![b]⟩, x3⟩] h (ix1 K) 2 (by show 2 < 4; omega) ⟨1, ![b]⟩ x2 rfl rfl (b + b) (by show b + (b + 0) = b + b; omega) (ix1 q) hi
      (by show (b + b) + q.val = K.val; rw [hK]; show (b + b) + q.val = b * 2 + q.val; omega)
  | ⟨3, _⟩ =>
    exact concatenate_apply_piece 0 [⟨⟨1, ![b]⟩, x0⟩, ⟨⟨1, ![b]⟩, x1⟩, ⟨⟨1, ![b]⟩, x2⟩, ⟨⟨1, ![b]⟩, x3⟩] h (ix1 K) 3 (by show 3 < 4; omega) ⟨1, ![b]⟩ x3 rfl rfl (b + b + b) (by show b + (b + (b + 0)) = b + b + b; omega) (ix1 q) hi
      (by show (b + b + b) + q.val = K.val; rw [hK]; show (b + b + b) + q.val = b * 3 + q.val; omega)
  | ⟨_ + 4, h⟩ => exact absurd h (by omega)

/-- Four matrices `[a, b]` set side by side: column `b n + q` is column `q` of piece `n`, the row unchanged. -/
theorem concat4_axis1 {a b N : Nat} (x0 x1 x2 x3 : (⟨2, ![a, b]⟩ : Shape).Idx → α)
    (h : Shape.Concatenates [(⟨2, ![a, b]⟩ : Shape), ⟨2, ![a, b]⟩, ⟨2, ![a, b]⟩, ⟨2, ![a, b]⟩] ⟨2, ![a, N]⟩ 1)
    (p : Fin a) (n : Fin 4) (q : Fin b) (K : Fin N) (hK : K.val = b * n.val + q.val) :
    concatenate ⟨2, ![a, N]⟩ 1 [⟨⟨2, ![a, b]⟩, x0⟩, ⟨⟨2, ![a, b]⟩, x1⟩, ⟨⟨2, ![a, b]⟩, x2⟩, ⟨⟨2, ![a, b]⟩, x3⟩] h (ix2 p K)
      = (![x0, x1, x2, x3] n) (ix2 p q) := by
  have hi : ∀ b' : Fin (⟨2, ![a, b]⟩ : Shape).rank, b'.cast (rfl : (⟨2, ![a, b]⟩ : Shape).rank = (⟨2, ![a, N]⟩ : Shape).rank) ≠ (1 : Fin 2) →
      ((ix2 p q : (⟨2, ![a, b]⟩ : Shape).Idx) b').val = ((ix2 p K : (⟨2, ![a, N]⟩ : Shape).Idx) (b'.cast rfl)).val :=
    fun b' hb => match b', hb with
      | ⟨0, _⟩, _ => rfl
      | ⟨1, _⟩, hb => absurd rfl hb
  match n with
  | ⟨0, _⟩ =>
    exact concatenate_apply_piece 1 [⟨⟨2, ![a, b]⟩, x0⟩, ⟨⟨2, ![a, b]⟩, x1⟩, ⟨⟨2, ![a, b]⟩, x2⟩, ⟨⟨2, ![a, b]⟩, x3⟩] h (ix2 p K) 0 (by show 0 < 4; omega) ⟨2, ![a, b]⟩ x0 rfl rfl 0 rfl (ix2 p q) hi
      (by show 0 + q.val = K.val; rw [hK]; show 0 + q.val = b * 0 + q.val; omega)
  | ⟨1, _⟩ =>
    exact concatenate_apply_piece 1 [⟨⟨2, ![a, b]⟩, x0⟩, ⟨⟨2, ![a, b]⟩, x1⟩, ⟨⟨2, ![a, b]⟩, x2⟩, ⟨⟨2, ![a, b]⟩, x3⟩] h (ix2 p K) 1 (by show 1 < 4; omega) ⟨2, ![a, b]⟩ x1 rfl rfl b (by show b + 0 = b; omega) (ix2 p q) hi
      (by show b + q.val = K.val; rw [hK]; show b + q.val = b * 1 + q.val; omega)
  | ⟨2, _⟩ =>
    exact concatenate_apply_piece 1 [⟨⟨2, ![a, b]⟩, x0⟩, ⟨⟨2, ![a, b]⟩, x1⟩, ⟨⟨2, ![a, b]⟩, x2⟩, ⟨⟨2, ![a, b]⟩, x3⟩] h (ix2 p K) 2 (by show 2 < 4; omega) ⟨2, ![a, b]⟩ x2 rfl rfl (b + b) (by show b + (b + 0) = b + b; omega) (ix2 p q) hi
      (by show (b + b) + q.val = K.val; rw [hK]; show (b + b) + q.val = b * 2 + q.val; omega)
  | ⟨3, _⟩ =>
    exact concatenate_apply_piece 1 [⟨⟨2, ![a, b]⟩, x0⟩, ⟨⟨2, ![a, b]⟩, x1⟩, ⟨⟨2, ![a, b]⟩, x2⟩, ⟨⟨2, ![a, b]⟩, x3⟩] h (ix2 p K) 3 (by show 3 < 4; omega) ⟨2, ![a, b]⟩ x3 rfl rfl (b + b + b) (by show b + (b + (b + 0)) = b + b + b; omega) (ix2 p q) hi
      (by show (b + b + b) + q.val = K.val; rw [hK]; show (b + b + b) + q.val = b * 3 + q.val; omega)
  | ⟨_ + 4, h⟩ => exact absurd h (by omega)

/-- Rows `o … o + 511` of a `[1024, 512]` matrix, cut out: row `k` of the slice is row `o + k`. -/
theorem slice_rows (o : Nat) (x : (⟨2, ![1024, 512]⟩ : Shape).Idx → α)
    (hs : (⟨2, ![1024, 512]⟩ : Shape).Slices ![o, 0] ⟨2, ![512, 512]⟩) (k d : Fin 512) (r : Fin 1024) (hr : r.val = o + k.val) :
    extractStridedSlice ⟨2, ![512, 512]⟩ ![o, 0] x hs (ix2 k d) = x (ix2 r d) :=
  extractStridedSlice_apply ![o, 0] x hs (ix2 k d) (ix2 r d) fun a =>
    match a with
    | ⟨0, _⟩ => hr
    | ⟨1, _⟩ => by show d.val = 0 + d.val; omega

end Four

end Cert.Lib.ConcatFour

end
-- ==== Proof.LibVectorSum.lean ====
/-
  A sum over the indices of a one-axis array is the sum over its one coordinate: the indices of an array [n]
  correspond one to one to the numbers below n.
-/
import Idealize.ShloMosaic.Lib.ValueIdx

namespace Cert.Lib.VectorSum

open Idealize.ShloMosaic Idealize.ShloMosaic.ValueIdx

/-- The numbers below n and the indices of an array [n], matched by the coordinate. -/
def idxEquiv1 {n : ℕ} : Fin n ≃ (⟨1, ![n]⟩ : Shape).Idx where
  toFun := ix1
  invFun j := j 0
  left_inv _ := rfl
  right_inv j := (eq_ix1 j).symm

/-- A sum over the indices of an array [n], in any commutative additive monoid, is the sum over i below n of the
    summand at the index with coordinate i. -/
theorem sum_idx1 {M : Type*} [AddCommMonoid M] {n : ℕ} (f : (⟨1, ![n]⟩ : Shape).Idx → M) :
    ∑ j, f j = ∑ i : Fin n, f (ix1 i) :=
  (Equiv.sum_comp idxEquiv1 f).symm

end Cert.Lib.VectorSum
-- ==== Proof.RefValue.lean ====
/-
  The reference program read one row at a time.

  For box arrays a (predicted) and b (target), each row (x, y, w, h), the program first rebuilds every box as its
  two corners (x, y, x + w, y + h): four column slices, two sums, and the four columns set side by side again.  From
  the corner arrays it takes the larger of the two lower corners and the smaller of the two upper corners, clips
  their difference below at zero, multiplies the two clipped sides, computes each box's area from its corners, and
  divides the intersection by the union.  Every one of these steps acts on row r alone, so row r of each stage is
  an expression in the eight numbers a(r, ·), b(r, ·); followed to the quotient, that expression is the
  specification's corner form of the intersection over union, `rowIouCorners a b r`.  No finiteness is needed here.
-/
import proofs.«137638_j41231686041778_1_alg».proof.Proof.Gen.ReferenceIdeal.Read
import proofs.«137638_j41231686041778_1_alg».proof.Proof.LibConcatFour
import proofs.«137638_j41231686041778_1_alg».proof.Proof.Spec
import proofs.«137638_j41231686041778_1_alg».proof.Proof.LibVectorSum
import Idealize.ShloMosaic.Lib.ValueIdx

noncomputable section

namespace Cert.IouRef

open Cert.ReferenceIdeal Cert.ReferenceIdeal.Read Idealize.ShloMosaic Idealize.ShloMosaic.ValueIdx

/-- An array of 2^23 boxes over the extended reals, as the program types it. -/
abbrev Arr : Type := (⟨S8388608x4, .f32⟩ : BufTy).Contents (Elt Ideal)

/-- Two indices of a two-axis array with equal coordinates are one index (a row number divided by one is itself). -/
local macro "same_index2" : tactic =>
  `(tactic| (funext d; match d with
    | ⟨0, _⟩ => first | rfl | exact Fin.ext (Nat.div_one _)
    | ⟨1, _⟩ => rfl))

/-- Two indices of a one-axis array with equal coordinates are one index. -/
local macro "same_index1" : tactic =>
  `(tactic| (funext d; match d with
    | ⟨0, _⟩ => rfl))

variable (a b : Arr) (r : Fin 8388608)

/-! ## The predicted boxes: columns, corner sums, and the corner array -/

/-- Column x of the predicted boxes. -/
theorem a_x : val_main_v1 (F := Ideal) a (ix1 r) = a (ix2 r (0 : Fin 4)) := by
  rw [val_main_v1_apply, val_main_v0_apply]; exact congrArg a (by same_index2)
/-- Column y. -/
theorem a_y : val_main_v3 (F := Ideal) a (ix1 r) = a (ix2 r (1 : Fin 4)) := by
  rw [val_main_v3_apply, val_main_v2_apply]; exact congrArg a (by same_index2)
/-- Column w. -/
theorem a_w : val_main_v5 (F := Ideal) a (ix1 r) = a (ix2 r (2 : Fin 4)) := by
  rw [val_main_v5_apply, val_main_v4_apply]; exact congrArg a (by same_index2)
/-- Column h. -/
theorem a_h : val_main_v7 (F := Ideal) a (ix1 r) = a (ix2 r (3 : Fin 4)) := by
  rw [val_main_v7_apply, val_main_v6_apply]; exact congrArg a (by same_index2)
/-- The upper corner's first coordinate x + w. -/
theorem a_xw : val_main_v8 (F := Ideal) a (ix1 r) = a (ix2 r (0 : Fin 4)) + a (ix2 r (2 : Fin 4)) := by
  rw [val_main_v8_apply, a_x, a_w, Ideal.addf_def]
/-- The upper corner's second coordinate y + h. -/
theorem a_yh : val_main_v9 (F := Ideal) a (ix1 r) = a (ix2 r (1 : Fin 4)) + a (ix2 r (3 : Fin 4)) := by
  rw [val_main_v9_apply, a_y, a_h, Ideal.addf_def]
/-- The four one-column pieces that are set side by side. -/
theorem a_piece0 : val_main_v10 (F := Ideal) a (ix2 r (0 : Fin 1)) = a (ix2 r (0 : Fin 4)) := by
  rw [val_main_v10_apply]; exact (congrArg (val_main_v1 (F := Ideal) a) (by same_index1)).trans (a_x a r)
theorem a_piece1 : val_main_v11 (F := Ideal) a (ix2 r (0 : Fin 1)) = a (ix2 r (1 : Fin 4)) := by
  rw [val_main_v11_apply]; exact (congrArg (val_main_v3 (F := Ideal) a) (by same_index1)).trans (a_y a r)
theorem a_piece2 : val_main_v12 (F := Ideal) a (ix2 r (0 : Fin 1)) = a (ix2 r (0 : Fin 4)) + a (ix2 r (2 : Fin 4)) := by
  rw [val_main_v12_apply]; exact (congrArg (val_main_v8 (F := Ideal) a) (by same_index1)).trans (a_xw a r)
theorem a_piece3 : val_main_v13 (F := Ideal) a (ix2 r (0 : Fin 1)) = a (ix2 r (1 : Fin 4)) + a (ix2 r (3 : Fin 4)) := by
  rw [val_main_v13_apply]; exact (congrArg (val_main_v9 (F := Ideal) a) (by same_index1)).trans (a_yh a r)
/-- The corner array (x, y, x + w, y + h) of the predicted boxes, column by column. -/
theorem a_corner0 : val_main_v14 (F := Ideal) a (ix2 r (0 : Fin 4)) = a (ix2 r (0 : Fin 4)) := by
  unfold val_main_v14
  exact (Cert.Lib.ConcatFour.concat4_axis1 (a := 8388608) (b := 1) (N := 4) _ _ _ _ _ r (0 : Fin 4) (0 : Fin 1) (0 : Fin 4) rfl).trans
    (a_piece0 a r)
theorem a_corner1 : val_main_v14 (F := Ideal) a (ix2 r (1 : Fin 4)) = a (ix2 r (1 : Fin 4)) := by
  unfold val_main_v14
  exact (Cert.Lib.ConcatFour.concat4_axis1 (a := 8388608) (b := 1) (N := 4) _ _ _ _ _ r (1 : Fin 4) (0 : Fin 1) (1 : Fin 4) rfl).trans
    (a_piece1 a r)
theorem a_corner2 : val_main_v14 (F := Ideal) a (ix2 r (2 : Fin 4)) = a (ix2 r (0 : Fin 4)) + a (ix2 r (2 : Fin 4)) := by
  unfold val_main_v14
  exact (Cert.Lib.ConcatFour.concat4_axis1 (a := 8388608) (b := 1) (N := 4) _ _ _ _ _ r (2 : Fin 4) (0 : Fin 1) (2 : Fin 4) rfl).trans
    (a_piece2 a r)
theorem a_corner3 : val_main_v14 (F := Ideal) a (ix2 r (3 : Fin 4)) = a (ix2 r (1 : Fin 4)) + a (ix2 r (3 : Fin 4)) := by
  unfold val_main_v14
  exact (Cert.Lib.ConcatFour.concat4_axis1 (a := 8388608) (b := 1) (N := 4) _ _ _ _ _ r (3 : Fin 4) (0 : Fin 1) (3 : Fin 4) rfl).trans
    (a_piece3 a r)

/-! ## The target boxes: the same steps -/

theorem b_x : val_main_v16 (F := Ideal) b (ix1 r) = b (ix2 r (0 : Fin 4)) := by
  rw [val_main_v16_apply, val_main_v15_apply]; exact congrArg b (by same_index2)
theorem b_y : val_main_v18 (F := Ideal) b (ix1 r) = b (ix2 r (1 : Fin 4)) := by
  rw [val_main_v18_apply, val_main_v17_apply]; exact congrArg b (by same_index2)
theorem b_w : val_main_v20 (F := Ideal) b (ix1 r) = b (ix2 r (2 : Fin 4)) := by
  rw [val_main_v20_apply, val_main_v19_apply]; exact congrArg b (by same_index2)
theorem b_h : val_main_v22 (F := Ideal) b (ix1 r) = b (ix2 r (3 : Fin 4)) := by
  rw [val_main_v22_apply, val_main_v21_apply]; exact congrArg b (by same_index2)
theorem b_xw : val_main_v23 (F := Ideal) b (ix1 r) = b (ix2 r (0 : Fin 4)) + b (ix2 r (2 : Fin 4)) := by
  rw [val_main_v23_apply, b_x, b_w, Ideal.addf_def]
theorem b_yh : val_main_v24 (F := Ideal) b (ix1 r) = b (ix2 r (1 : Fin 4)) + b (ix2 r (3 : Fin 4)) := by
  rw [val_main_v24_apply, b_y, b_h, Ideal.addf_def]
theorem b_piece0 : val_main_v25 (F := Ideal) b (ix2 r (0 : Fin 1)) = b (ix2 r (0 : Fin 4)) := by
  rw [val_main_v25_apply]; exact (congrArg (val_main_v16 (F := Ideal) b) (by same_index1)).trans (b_x b r)
theorem b_piece1 : val_main_v26 (F := Ideal) b (ix2 r (0 : Fin 1)) = b (ix2 r (1 : Fin 4)) := by
  rw [val_main_v26_apply]; exact (congrArg (val_main_v18 (F := Ideal) b) (by same_index1)).trans (b_y b r)
theorem b_piece2 : val_main_v27 (F := Ideal) b (ix2 r (0 : Fin 1)) = b (ix2 r (0 : Fin 4)) + b (ix2 r (2 : Fin 4)) := by
  rw [val_main_v27_apply]; exact (congrArg (val_main_v23 (F := Ideal) b) (by same_index1)).trans (b_xw b r)
theorem b_piece3 : val_main_v28 (F := Ideal) b (ix2 r (0 : Fin 1)) = b (ix2 r (1 : Fin 4)) + b (ix2 r (3 : Fin 4)) := by
  rw [val_main_v28_apply]; exact (congrArg (val_main_v24 (F := Ideal) b) (by same_index1)).trans (b_yh b r)
/-- The corner array of the target boxes. -/
theorem b_corner0 : val_main_v29 (F := Ideal) b (ix2 r (0 : Fin 4)) = b (ix2 r (0 : Fin 4)) := by
  unfold val_main_v29
  exact (Cert.Lib.ConcatFour.concat4_axis1 (a := 8388608) (b := 1) (N := 4) _ _ _ _ _ r (0 : Fin 4) (0 : Fin 1) (0 : Fin 4) rfl).trans
    (b_piece0 b r)
theorem b_corner1 : val_main_v29 (F := Ideal) b (ix2 r (1 : Fin 4)) = b (ix2 r (1 : Fin 4)) := by
  unfold val_main_v29
  exact (Cert.Lib.ConcatFour.concat4_axis1 (a := 8388608) (b := 1) (N := 4) _ _ _ _ _ r (1 : Fin 4) (0 : Fin 1) (1 : Fin 4) rfl).trans
    (b_piece1 b r)
theorem b_corner2 : val_main_v29 (F := Ideal) b (ix2 r (2 : Fin 4)) = b (ix2 r (0 : Fin 4)) + b (ix2 r (2 : Fin 4)) := by
  unfold val_main_v29
  exact (Cert.Lib.ConcatFour.concat4_axis1 (a := 8388608) (b := 1) (N := 4) _ _ _ _ _ r (2 : Fin 4) (0 : Fin 1) (2 : Fin 4) rfl).trans
    (b_piece2 b r)
theorem b_corner3 : val_main_v29 (F := Ideal) b (ix2 r (3 : Fin 4)) = b (ix2 r (1 : Fin 4)) + b (ix2 r (3 : Fin 4)) := by
  unfold val_main_v29
  exact (Cert.Lib.ConcatFour.concat4_axis1 (a := 8388608) (b := 1) (N := 4) _ _ _ _ _ r (3 : Fin 4) (0 : Fin 1) (3 : Fin 4) rfl).trans
    (b_piece3 b r)

/-! ## The intersection's sides -/

/-- The lower corners (columns 0, 1 of each corner array). -/
theorem a_lo0 : val_main_v30 (F := Ideal) a (ix2 r (0 : Fin 2)) = a (ix2 r (0 : Fin 4)) := by
  rw [val_main_v30_apply]; exact (congrArg (val_main_v14 (F := Ideal) a) (by same_index2)).trans (a_corner0 a r)
theorem a_lo1 : val_main_v30 (F := Ideal) a (ix2 r (1 : Fin 2)) = a (ix2 r (1 : Fin 4)) := by
  rw [val_main_v30_apply]; exact (congrArg (val_main_v14 (F := Ideal) a) (by same_index2)).trans (a_corner1 a r)
theorem b_lo0 : val_main_v31 (F := Ideal) b (ix2 r (0 : Fin 2)) = b (ix2 r (0 : Fin 4)) := by
  rw [val_main_v31_apply]; exact (congrArg (val_main_v29 (F := Ideal) b) (by same_index2)).trans (b_corner0 b r)
theorem b_lo1 : val_main_v31 (F := Ideal) b (ix2 r (1 : Fin 2)) = b (ix2 r (1 : Fin 4)) := by
  rw [val_main_v31_apply]; exact (congrArg (val_main_v29 (F := Ideal) b) (by same_index2)).trans (b_corner1 b r)
/-- The upper corners (columns 2, 3). -/
theorem a_hi0 : val_main_v33 (F := Ideal) a (ix2 r (0 : Fin 2)) = a (ix2 r (0 : Fin 4)) + a (ix2 r (2 : Fin 4)) := by
  rw [val_main_v33_apply]; exact (congrArg (val_main_v14 (F := Ideal) a) (by same_index2)).trans (a_corner2 a r)
theorem a_hi1 : val_main_v33 (F := Ideal) a (ix2 r (1 : Fin 2)) = a (ix2 r (1 : Fin 4)) + a (ix2 r (3 : Fin 4)) := by
  rw [val_main_v33_apply]; exact (congrArg (val_main_v14 (F := Ideal) a) (by same_index2)).trans (a_corner3 a r)
theorem b_hi0 : val_main_v34 (F := Ideal) b (ix2 r (0 : Fin 2)) = b (ix2 r (0 : Fin 4)) + b (ix2 r (2 : Fin 4)) := by
  rw [val_main_v34_apply]; exact (congrArg (val_main_v29 (F := Ideal) b) (by same_index2)).trans (b_corner2 b r)
theorem b_hi1 : val_main_v34 (F := Ideal) b (ix2 r (1 : Fin 2)) = b (ix2 r (1 : Fin 4)) + b (ix2 r (3 : Fin 4)) := by
  rw [val_main_v34_apply]; exact (congrArg (val_main_v29 (F := Ideal) b) (by same_index2)).trans (b_corner3 b r)

/-- The intersection's side along x before clipping: the smaller upper corner minus the larger lower corner. -/
theorem side0 : val_main_v36 (F := Ideal) a b (ix2 r (0 : Fin 2))
    = min (a (ix2 r (0 : Fin 4)) + a (ix2 r (2 : Fin 4))) (b (ix2 r (0 : Fin 4)) + b (ix2 r (2 : Fin 4)))
      - max (a (ix2 r (0 : Fin 4))) (b (ix2 r (0 : Fin 4))) := by
  rw [val_main_v36_apply, val_main_v35_apply, val_main_v32_apply, a_hi0, b_hi0, a_lo0, b_lo0,
    Ideal.subf_def, Ideal.minimumf_def, Ideal.maximumf_def]
/-- The side along y. -/
theorem side1 : val_main_v36 (F := Ideal) a b (ix2 r (1 : Fin 2))
    = min (a (ix2 r (1 : Fin 4)) + a (ix2 r (3 : Fin 4))) (b (ix2 r (1 : Fin 4)) + b (ix2 r (3 : Fin 4)))
      - max (a (ix2 r (1 : Fin 4))) (b (ix2 r (1 : Fin 4))) := by
  rw [val_main_v36_apply, val_main_v35_apply, val_main_v32_apply, a_hi1, b_hi1, a_lo1, b_lo1,
    Ideal.subf_def, Ideal.minimumf_def, Ideal.maximumf_def]

/-- The clip's lower bound, the zero word spread over the array, reads zero everywhere. -/
theorem clip_floor (i : S8388608x2.Idx) : val_main_call0_v1 (F := Ideal) i = 0 := by
  rw [val_main_call0_v1_apply, val_main_call0_v0_apply, val_main_cst_apply, Ideal.ofBits_def, Ideal.ofBits_zero_f32]

/-- The clipped side along x. -/
theorem clipped0 : val_main_v37 (F := Ideal) a b (ix2 r (0 : Fin 2))
    = max 0 (min (a (ix2 r (0 : Fin 4)) + a (ix2 r (2 : Fin 4))) (b (ix2 r (0 : Fin 4)) + b (ix2 r (2 : Fin 4)))
      - max (a (ix2 r (0 : Fin 4))) (b (ix2 r (0 : Fin 4)))) := by
  rw [val_main_v37_apply, clip_floor, side0, Ideal.maximumf_def]
/-- The clipped side along y. -/
theorem clipped1 : val_main_v37 (F := Ideal) a b (ix2 r (1 : Fin 2))
    = max 0 (min (a (ix2 r (1 : Fin 4)) + a (ix2 r (3 : Fin 4))) (b (ix2 r (1 : Fin 4)) + b (ix2 r (3 : Fin 4)))
      - max (a (ix2 r (1 : Fin 4))) (b (ix2 r (1 : Fin 4)))) := by
  rw [val_main_v37_apply, clip_floor, side1, Ideal.maximumf_def]

/-- The two clipped sides as vectors over the rows. -/
theorem clipped0_flat : val_main_v39 (F := Ideal) a b (ix1 r) = val_main_v37 (F := Ideal) a b (ix2 r (0 : Fin 2)) := by
  rw [val_main_v39_apply, val_main_v38_apply]; exact congrArg (val_main_v37 (F := Ideal) a b) (by same_index2)
theorem clipped1_flat : val_main_v41 (F := Ideal) a b (ix1 r) = val_main_v37 (F := Ideal) a b (ix2 r (1 : Fin 2)) := by
  rw [val_main_v41_apply, val_main_v40_apply]; exact congrArg (val_main_v37 (F := Ideal) a b) (by same_index2)

/-- The intersection's area. -/
theorem inter_row : val_main_v42 (F := Ideal) a b (ix1 r)
    = max 0 (min (a (ix2 r (0 : Fin 4)) + a (ix2 r (2 : Fin 4))) (b (ix2 r (0 : Fin 4)) + b (ix2 r (2 : Fin 4)))
        - max (a (ix2 r (0 : Fin 4))) (b (ix2 r (0 : Fin 4))))
      * max 0 (min (a (ix2 r (1 : Fin 4)) + a (ix2 r (3 : Fin 4))) (b (ix2 r (1 : Fin 4)) + b (ix2 r (3 : Fin 4)))
        - max (a (ix2 r (1 : Fin 4))) (b (ix2 r (1 : Fin 4)))) := by
  rw [val_main_v42_apply, clipped0_flat, clipped1_flat, clipped0, clipped1, Ideal.mulf_def]

/-! ## The two areas, from the corners -/

theorem a_c2 : val_main_v44 (F := Ideal) a (ix1 r) = a (ix2 r (0 : Fin 4)) + a (ix2 r (2 : Fin 4)) := by
  rw [val_main_v44_apply, val_main_v43_apply]
  exact (congrArg (val_main_v14 (F := Ideal) a) (by same_index2)).trans (a_corner2 a r)
theorem a_c0 : val_main_v46 (F := Ideal) a (ix1 r) = a (ix2 r (0 : Fin 4)) := by
  rw [val_main_v46_apply, val_main_v45_apply]
  exact (congrArg (val_main_v14 (F := Ideal) a) (by same_index2)).trans (a_corner0 a r)
theorem a_c3 : val_main_v49 (F := Ideal) a (ix1 r) = a (ix2 r (1 : Fin 4)) + a (ix2 r (3 : Fin 4)) := by
  rw [val_main_v49_apply, val_main_v48_apply]
  exact (congrArg (val_main_v14 (F := Ideal) a) (by same_index2)).trans (a_corner3 a r)
theorem a_c1 : val_main_v51 (F := Ideal) a (ix1 r) = a (ix2 r (1 : Fin 4)) := by
  rw [val_main_v51_apply, val_main_v50_apply]
  exact (congrArg (val_main_v14 (F := Ideal) a) (by same_index2)).trans (a_corner1 a r)
/-- The predicted box's area ((x + w) − x)·((y + h) − y). -/
theorem a_area : val_main_v53 (F := Ideal) a (ix1 r)
    = (a (ix2 r (0 : Fin 4)) + a (ix2 r (2 : Fin 4)) - a (ix2 r (0 : Fin 4)))
      * (a (ix2 r (1 : Fin 4)) + a (ix2 r (3 : Fin 4)) - a (ix2 r (1 : Fin 4))) := by
  rw [val_main_v53_apply, val_main_v47_apply, val_main_v52_apply, a_c2, a_c0, a_c3, a_c1,
    Ideal.mulf_def, Ideal.subf_def, Ideal.subf_def]

theorem b_c2 : val_main_v55 (F := Ideal) b (ix1 r) = b (ix2 r (0 : Fin 4)) + b (ix2 r (2 : Fin 4)) := by
  rw [val_main_v55_apply, val_main_v54_apply]
  exact (congrArg (val_main_v29 (F := Ideal) b) (by same_index2)).trans (b_corner2 b r)
theorem b_c0 : val_main_v57 (F := Ideal) b (ix1 r) = b (ix2 r (0 : Fin 4)) := by
  rw [val_main_v57_apply, val_main_v56_apply]
  exact (congrArg (val_main_v29 (F := Ideal) b) (by same_index2)).trans (b_corner0 b r)
theorem b_c3 : val_main_v60 (F := Ideal) b (ix1 r) = b (ix2 r (1 : Fin 4)) + b (ix2 r (3 : Fin 4)) := by
  rw [val_main_v60_apply, val_main_v59_apply]
  exact (congrArg (val_main_v29 (F := Ideal) b) (by same_index2)).trans (b_corner3 b r)
theorem b_c1 : val_main_v62 (F := Ideal) b (ix1 r) = b (ix2 r (1 : Fin 4)) := by
  rw [val_main_v62_apply, val_main_v61_apply]
  exact (congrArg (val_main_v29 (F := Ideal) b) (by same_index2)).trans (b_corner1 b r)
/-- The target box's area. -/
theorem b_area : val_main_v64 (F := Ideal) b (ix1 r)
    = (b (ix2 r (0 : Fin 4)) + b (ix2 r (2 : Fin 4)) - b (ix2 r (0 : Fin 4)))
      * (b (ix2 r (1 : Fin 4)) + b (ix2 r (3 : Fin 4)) - b (ix2 r (1 : Fin 4))) := by
  rw [val_main_v64_apply, val_main_v58_apply, val_main_v63_apply, b_c2, b_c0, b_c3, b_c1,
    Ideal.mulf_def, Ideal.subf_def, Ideal.subf_def]

/-! ## The quotient -/

/-- ROW r OF THE QUOTIENT is the specification's corner form of the intersection over union of row r. -/
theorem iou_row : val_main_v67 (F := Ideal) a b (ix1 r) = Cert.IouSpec.rowIouCorners a b r := by
  rw [val_main_v67_apply, val_main_v66_apply, val_main_v65_apply, a_area, b_area, inter_row,
    Ideal.hostDivf_def, Ideal.subf_def, Ideal.addf_def]
  rfl

/-! ## The sum over the rows, and the three scalar steps on top -/

/-- THE REDUCE. Starting from the zero word it adds the quotient over all 2^23 rows.  With real inputs each row's
    corner form is the plain intersection over union (the one place finiteness enters: (x + w) − x = w needs x
    real), so the result is the specification's total. -/
theorem total_row (h0 : ∀ i, ∃ x : ℝ, a i = (x : EReal)) (h1 : ∀ i, ∃ x : ℝ, b i = (x : EReal)) (i : S_.Idx) :
    val_main_v68 (F := Ideal) a b i = Cert.IouSpec.total a b := by
  rw [val_main_v68_apply, val_main_cst_0_apply, Ideal.ofBits_def, Ideal.ofBits_zero_f32, zero_add,
    Cert.Lib.VectorSum.sum_idx1]
  unfold Cert.IouSpec.total
  exact Finset.sum_congr rfl fun r _ => (iou_row a b r).trans (Cert.IouSpec.rowIouCorners_eq a b h0 h1 r)

/-- THE REFERENCE'S RESULT: the total divided by the word 0x4B000000 (the float 2^23), its logarithm, negated, is
    the specification's loss, at the result's one index. -/
theorem ref_loss
    (x0 x1 : (⟨Cert.ReferenceIdeal.S8388608x4, .f32⟩ : BufTy).Contents (Elt Ideal))
    (h0 : ∀ i, ∃ r : ℝ, x0 i = (r : EReal)) (h1 : ∀ i, ∃ r : ℝ, x1 i = (r : EReal)) :
    Cert.ReferenceIdeal.Read.val_main_v71 (F := Ideal) x0 x1 = fun _ => Cert.IouSpec.loss x0 x1 := by
  funext i
  rw [val_main_v71_apply, val_main_v70_apply, val_main_v69_apply, val_main_cst_1_apply, total_row x0 x1 h0 h1,
    Ideal.hostNegf_def, Ideal.negf_def, Ideal.hostUnary_log_def, Ideal.hostDivf_def, Ideal.ofBits_def]
  rfl

end Cert.IouRef

end
-- ==== Proof.lean ====
/-
  An intersection-over-union loss over 2^23 pairs of boxes: a kernel that streams the two box arrays in 2048
  blocks of 4096 rows, keeps a running sum of the row-wise intersection over union in a one-element
  accumulator and finishes with −log(sum / 2^23) on the host, against a reference that first rewrites every box
  (x, y, w, h) as its two corners (x, y, x + w, y + h), computes the same quotient from the corners for all rows
  at once, and takes −log of the mean.

  Over the extended reals both end at one number, `IouSpec.loss` of the two argument arrays:
    • the kernel's accumulator after point n holds the sum of the block sums of points 0 … n (induction on the
      point); the 2048 block sums are the one sum over all rows because addition is associative and commutative;
      the last point copies the sum to the output, and the host lines divide, take the logarithm and negate;
    • the reference's stages, read one row at a time, give the corner form of the quotient, which is the plain
      form when the corner coordinates are real numbers — (x + w) − x = w fails at an infinite x — and max(0, ·)
      is max(·, 0); its sum from the zero word is the sum over all rows.
  The precondition (every entry's absolute value below +∞) is what makes the entries real.
-/
import proofs.«137638_j41231686041778_1_alg».proof.Defs
import proofs.«137638_j41231686041778_1_alg».proof.Proof.Gen.Kernel
import proofs.«137638_j41231686041778_1_alg».proof.Proof.Gen.Kernel.Frame
import proofs.«137638_j41231686041778_1_alg».proof.Proof.Gen.KernelIdeal
import proofs.«137638_j41231686041778_1_alg».proof.Proof.Gen.KernelIdeal.Frame
import proofs.«137638_j41231686041778_1_alg».proof.Proof.Gen.ReferenceIdeal
import proofs.«137638_j41231686041778_1_alg».proof.Proof.Gen.Pre_finite_inputs
import proofs.«137638_j41231686041778_1_alg».proof.Proof.Gen.ReferenceIdeal.Run
import proofs.«137638_j41231686041778_1_alg».proof.Proof.Gen.ReferenceIdeal.Read
import proofs.«137638_j41231686041778_1_alg».proof.Proof.Spec
import proofs.«137638_j41231686041778_1_alg».proof.Proof.KFinal
import proofs.«137638_j41231686041778_1_alg».proof.Proof.Finite
import proofs.«137638_j41231686041778_1_alg».proof.Proof.RefValue

noncomputable section

open Idealize.ShloMosaic Idealize.ShloMosaic.TcCoe Idealize.SL.Sem

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

/-- Both programs end at the loss of the argument arrays: the kernel by its run read as a value, the reference
    by its run read stage by stage; the precondition makes every entry a real number, which the reference's
    corner form of a box's area needs. -/
theorem algebraic : Cert.algebraic_KernelIdeal_ReferenceIdeal := by
  intro m ρ m' ρ' hpre hagree
  refine ⟨fun c => fun _ => Cert.IouSpec.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.IouKernel.run m ρ, ?_⟩
  refine (θ_run Cert.ReferenceIdeal.defs _ _).mono (fun _ h c => ⟨(h c).1.trans ?_, (h c).2⟩)
    (Cert.ReferenceIdeal.Value.run (F := Ideal) m' ρ')
  have hreal := Cert.IouFinite.real_of_pre _ _ (hpre c)
  rw [Cert.ReferenceIdeal.Read.val_main_v71_eq, (hagree c).1, (hagree c).2]
  exact Cert.IouRef.ref_loss _ _ hreal.1 hreal.2

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
